-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_

variable [Facts]

def fn {F : FTy → Type} [FloatOps F] (main_arg0 : FVec F S8192x4096 .f32) (main_arg1 : FVec F S16384x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S8192x4096 : Shape := ⟨2, ![8192, 4096]⟩
abbrev S16384x4096 : Shape := ⟨2, ![16384, 4096]⟩
abbrev S8192x16384 : Shape := ⟨2, ![8192, 16384]⟩
abbrev S512x4096 : Shape := ⟨2, ![512, 4096]⟩
abbrev S512x512 : Shape := ⟨2, ![512, 512]⟩
abbrev S128x4096 : Shape := ⟨2, ![128, 4096]⟩
abbrev S128 : Shape := ⟨1, ![128]⟩
abbrev S128x1 : Shape := ⟨2, ![128, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384x4096, .bf16⟩
  | .hbm, ⟨3, _⟩ => ⟨S8192x16384, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x512, .f32⟩
  | .local _ .vmem, ⟨5, _⟩ => ⟨S512x512, .f32⟩
  | .local _ .vmem, ⟨6, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 32], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (c0_i32_6 : BitVec 32) : Fin 2 → Nat :=
  let c128_i32 : BitVec 32 := 128#32
  let v9 : BitVec 32 := Scalar.muli c0_i32_6 c128_i32
  let v10 : Index := Scalar.indexCast v9
  let c0_7 : Index := 0#32
  ![v10.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  h_S128x4096 : 0 < S128x4096.numel
  reduces_S128x4096_S128 : S128x4096.Reduces [1] S128
  shapeCasts_S128_S128x1 : S128.ShapeCasts S128x1
  broadcasts_S128x1_S128x4096 : S128x1.Broadcasts S128x4096
  shapeCasts_S128x4096_S128x4096 : S128x4096.ShapeCasts S128x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x512_S512x512_0_0 : ∀ a, (![0, 0] : Fin 2 → Nat) a + S512x512.size a ≤ S512x512.size a
  h_S512x512 : 0 < S512x512.numel
  dot_S512x4096_S512x4096_S512x512_1_1_0_0_n_n_wf : DotDims.WF S512x4096 S512x4096 S512x512 [1] [1] [0] [0] [] []
  hrank0 : 0 < grid0.rank
  k0_off1_inb : ∀ i : grid0.Coords, ∀ (k0_h1 : k0_cond1 i = 1#1), ∀ (r : Fin 4), ∀ a, (k0_off1 (BitVec.ofNat 32 r.val)) a + S128x4096.size a ≤ S512x4096.size a
  k0_off1_packedbf16 : ∀ i : grid0.Coords, ∀ (k0_h1 : k0_cond1 i = 1#1), ∀ (r : Fin 4), (Rect.unit (s := S512x4096) (k0_off1 (BitVec.ofNat 32 r.val)) S128x4096.size (k0_off1_inb i k0_h1 r)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .bf16 = 32 ∨ (Rect.block (s := S16384x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x16384.size a
  hwx0_2 : ∀ i : grid0.Coords, EltTy.bits .f32 = 32 ∨ (Rect.block (s := S8192x16384) S512x512.size (cc0_transform_2 i) (hinb0_2 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S16384x4096 : Shape := ⟨2, ![16384, 4096]⟩
abbrev S_ : Shape := ⟨0, ![]⟩
abbrev S8192 : Shape := ⟨1, ![8192]⟩
abbrev S8192x1 : Shape := ⟨2, ![8192, 1]⟩
abbrev S8192x16384 : Shape := ⟨2, ![8192, 16384]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S_, .f32⟩
  | .hbm, ⟨6, _⟩ => ⟨S8192x1, .f32⟩
  | .hbm, ⟨7, _⟩ => ⟨S8192x1, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x4096, .f32⟩
  | .hbm, ⟨24, _⟩ => ⟨S8192x4096, .f32⟩
  | .hbm, ⟨25, _⟩ => ⟨S8192x16384, .f32⟩
  | .hbm, ⟨26, _⟩ => ⟨S8192x16384, .f32⟩
  | .hbm, ⟨27, _⟩ => ⟨S8192x16384, .f32⟩
  | .hbm, ⟨28, _⟩ => ⟨S_, .f32⟩
  | .hbm, ⟨29, _⟩ => ⟨S8192x16384, .f32⟩
  | .hbm, ⟨30, _⟩ => ⟨S8192x16384, .f32⟩
  | .hbm, ⟨31, _⟩ => ⟨S_, .f32⟩
  | .hbm, ⟨32, _⟩ => ⟨S8192x16384, .f32⟩
  | .hbm, ⟨33, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x16384 : S_.BroadcastsInDim S8192x16384 (![] : Fin 0 → Fin S8192x16384.rank)
  dot_S8192x4096_S16384x4096_S8192x16384_1_1_0_0_n_n_wf : DotDims.WF S8192x4096 S16384x4096 S8192x16384 [1] [1] [0] [0] [] []

variable [Facts₀]

def dot_S8192x4096_S16384x4096_S8192x16384_1_1_0_0_n_n : DotDims S8192x4096 S16384x4096 S8192x16384 where
  lhsContracting := [1]
  rhsContracting := [1]
  lhsNonContracting := [0]
  rhsNonContracting := [0]
  lhsBatch := []
  rhsBatch := []
  wf := dot_S8192x4096_S16384x4096_S8192x16384_1_1_0_0_n_n_wf

class Facts : Prop extends Facts₀ where

variable [Facts]
-- ==== Proof.Spec.lean ====
/-
  Layer normalisation of every row of `x` (no learned scale or shift), the linear map by `W`, and the logistic
  function, as ONE function of the two argument arrays on the extended reals.

  For a row `r` of length 4096:
    mean      μ(r)   = (Σₖ rₖ) / 4096
    variance  σ²(r)  = (Σₖ (rₖ − μ)²) / 4096                      (the biased one)
    normed    r̂ₖ     = (rₖ − μ) · (σ² + ε)^(−1/2)
  and the result at (t, o) is  logistic (Σₖ x̂ₜₖ · W_ok),  logistic y = 1 / (1 + e^(−y)).
  The divisor 4096 and the offset ε are the f32 words both programs carry (4096.0, and the word nearest 1e-5); they are
  never evaluated: the same word stands on both sides.
-/
import Idealize.ShloMosaic.PureOps.Ideal
import Idealize.ShloMosaic.PureOps.Ideal.Laws
import Idealize.ShloMosaic.Lib.ValueIdx

noncomputable section

namespace Cert.NormLinear

open Idealize.ShloMosaic Idealize.ShloMosaic.ValueIdx

/-- The row length as both programs write it: the f32 word of 4096.0. -/
abbrev rowLen : EReal := Ideal.ofBits .f32 0x45800000#32
/-- The variance offset ε as both programs write it: the f32 word nearest 1e-5. -/
abbrev varEps : EReal := Ideal.ofBits .f32 0x3727C5AC#32

/-- The mean of a row. -/
def rowMean (r : Fin 4096 → EReal) : EReal := Ideal.div (∑ k : Fin 4096, r k) rowLen

/-- The (biased) variance of a row: the mean of the squared deviations from the row's mean. -/
def rowVar (r : Fin 4096 → EReal) : EReal :=
  Ideal.div (∑ k : Fin 4096, (r k - rowMean r) * (r k - rowMean r)) rowLen

/-- The normalised row: each deviation from the mean times the inverse square root of variance plus ε. -/
def rowNorm (r : Fin 4096 → EReal) (k : Fin 4096) : EReal :=
  (r k - rowMean r) * Ideal.rsqrt (rowVar r + varEps)

/-- Row `p` of an array of rows of length 4096. -/
abbrev rowOf {n : ℕ} (X : (⟨2, ![n, 4096]⟩ : Shape).Idx → EReal) (p : Fin n) : Fin 4096 → EReal :=
  fun k => X (ix2 p k)

/-- Every row normalised: entry (p, k) depends on row `p` only. -/
def normed {n : ℕ} (X : (⟨2, ![n, 4096]⟩ : Shape).Idx → EReal) : (⟨2, ![n, 4096]⟩ : Shape).Idx → EReal :=
  fun j => rowNorm (rowOf X (j 0)) (j 1)

/-- The inner product of a normalised-row array's row `p` with row `q` of a weight array, through the logistic
    function: one entry of the result. -/
def entry {a b : ℕ} (N : (⟨2, ![a, 4096]⟩ : Shape).Idx → EReal) (W : (⟨2, ![b, 4096]⟩ : Shape).Idx → EReal)
    (p : Fin a) (q : Fin b) : EReal :=
  Ideal.logistic (∑ k : Fin 4096, N (ix2 p k) * W (ix2 q k))

/-- THE RESULT: logistic of (normalised rows of `X`) · `W`ᵀ, entry (t, o) from row `t` of `X` and row `o` of `W`. -/
def result (X : (⟨2, ![8192, 4096]⟩ : Shape).Idx → EReal) (W : (⟨2, ![16384, 4096]⟩ : Shape).Idx → EReal) :
    (⟨2, ![8192, 16384]⟩ : Shape).Idx → EReal :=
  fun j => entry (normed X) W (j 0) (j 1)

theorem normed_apply {n : ℕ} (X : (⟨2, ![n, 4096]⟩ : Shape).Idx → EReal) (p : Fin n) (k : Fin 4096) :
    normed X (ix2 p k) = rowNorm (rowOf X p) k := rfl

theorem result_apply (X : (⟨2, ![8192, 4096]⟩ : Shape).Idx → EReal) (W : (⟨2, ![16384, 4096]⟩ : Shape).Idx → EReal)
    (t : Fin 8192) (o : Fin 16384) : result X W (ix2 t o) = entry (normed X) W t o := rfl

end Cert.NormLinear

end
-- ==== Proof.RefIsSpec.lean ====
/-
  The reference computes the specification.

  Read one operation at a time (the generated read-at-an-index lemmas), the reference's result at (t, o) is
    1 / (1 + exp (−Σₖ x̂ₜₖ · W_ok)),   x̂ₜₖ = (xₜₖ − μₜ) · rsqrt (σ²ₜ + ε),
  with μₜ = (0 + Σₖ xₜₖ) / 4096 and σ²ₜ = (0 + Σₖ (xₜₖ − μₜ)²) / 4096: the host's sums start from a zero it adds (which
  changes nothing), its `1 / (1 + exp (−y))` IS the logistic function on the extended reals (at ±∞ too), and its literal
  1.0 is the number one. Everything else is the specification's own formula, with each broadcast read at the row it
  came from.
-/
import proofs.«179545_j59356448031118_2_alg».proof.Proof.Gen.ReferenceIdeal.Read
import proofs.«179545_j59356448031118_2_alg».proof.Proof.Spec

noncomputable section

namespace Cert.ReferenceIdeal.RefValue

open Idealize.ShloMosaic Idealize.ShloMosaic.ValueIdx
open Cert.ReferenceIdeal Cert.ReferenceIdeal.Read Cert.NormLinear

/-- The f32 word of 1.0 is the number one. -/
theorem one_eq : Ideal.ofBits .f32 0x3F800000#32 = 1 := by
  simp [Ideal.ofBits, Ideal.ieee, -EReal.coe_mul]; norm_num

/-- The indices a row sum runs over at row `t`: (t, k). -/
theorem sumIdx_eq (t : Fin 8192) (u : Fin 1) (k : Fin 4096) : idx_main_v0 (idx_main_v1 (ix2 t u)) k = ix2 t k :=
  funext fun a => Fin.ext (by
    match a with
    | ⟨0, _⟩ => rfl
    | ⟨1, _⟩ => rfl)
theorem sumIdx'_eq (t : Fin 8192) (u : Fin 1) (k : Fin 4096) : idx_main_v7 (idx_main_v8 (ix2 t u)) k = ix2 t k :=
  funext fun a => Fin.ext (by
    match a with
    | ⟨0, _⟩ => rfl
    | ⟨1, _⟩ => rfl)
/-- A per-row column spread over the lanes is read at the row's one entry. -/
theorem colIdx_eq (t : Fin 8192) (k : Fin 4096) : idx_main_v4 (ix2 t k) = ix2 t (0 : Fin 1) :=
  funext fun a => Fin.ext (by
    match a with
    | ⟨0, _⟩ => rfl
    | ⟨1, _⟩ => rfl)
theorem colIdx'_eq (t : Fin 8192) (k : Fin 4096) : idx_main_v11 (ix2 t k) = ix2 t (0 : Fin 1) :=
  funext fun a => Fin.ext (by
    match a with
    | ⟨0, _⟩ => rfl
    | ⟨1, _⟩ => rfl)
theorem colIdx''_eq (t : Fin 8192) (k : Fin 4096) : idx_main_v16 (ix2 t k) = ix2 t (0 : Fin 1) :=
  funext fun a => Fin.ext (by
    match a with
    | ⟨0, _⟩ => rfl
    | ⟨1, _⟩ => rfl)
/-- The product's operands at (t, o) and contracted coordinate k: (t, k) and (o, k). -/
theorem lidx_eq (t : Fin 8192) (o : Fin 16384) (k : Fin 4096) : lidx_main_v18 (ix2 t o) k = ix2 t k :=
  funext fun a => Fin.ext (by
    match a with
    | ⟨0, _⟩ => rfl
    | ⟨1, _⟩ => rfl)
theorem ridx_eq (t : Fin 8192) (o : Fin 16384) (k : Fin 4096) : ridx_main_v18 (ix2 t o) k = ix2 o k :=
  funext fun a => Fin.ext (by
    match a with
    | ⟨0, _⟩ => rfl
    | ⟨1, _⟩ => rfl)

/-- The reference's per-row mean column holds the row's mean. -/
theorem mean_apply (x0 : S8192x4096.Idx → EReal) (t : Fin 8192) (u : Fin 1) :
    val_main_v3 (F := Ideal) x0 (ix2 t u) = rowMean (rowOf x0 t) := by
  rw [val_main_v3_apply, val_main_v1_apply, val_main_v0_apply, val_main_v2_apply, val_main_cst_0_apply, val_main_cst_apply]
  show Ideal.div (Ideal.ofBits .f32 0x00000000#32 + ∑ k : Fin 4096, x0 (idx_main_v0 (idx_main_v1 (ix2 t u)) k)) rowLen = _
  rw [Ideal.ofBits_zero_f32, zero_add]
  exact congrArg (fun s => Ideal.div s rowLen) (Finset.sum_congr rfl fun k _ => congrArg x0 (sumIdx_eq t u k))

/-- The reference's deviations: entry minus its row's mean (the first copy, which is squared). -/
theorem dev_apply (x0 : S8192x4096.Idx → EReal) (t : Fin 8192) (k : Fin 4096) :
    val_main_v5 (F := Ideal) x0 (ix2 t k) = x0 (ix2 t k) - rowMean (rowOf x0 t) := by
  rw [val_main_v5_apply, val_main_v4_apply, colIdx_eq, mean_apply]
  rfl
/-- The second copy (which is scaled). -/
theorem dev'_apply (x0 : S8192x4096.Idx → EReal) (t : Fin 8192) (k : Fin 4096) :
    val_main_v12 (F := Ideal) x0 (ix2 t k) = x0 (ix2 t k) - rowMean (rowOf x0 t) := by
  rw [val_main_v12_apply, val_main_v11_apply, colIdx'_eq, mean_apply]
  rfl

/-- The reference's per-row variance column holds the row's variance. -/
theorem var_apply (x0 : S8192x4096.Idx → EReal) (t : Fin 8192) (u : Fin 1) :
    val_main_v10 (F := Ideal) x0 (ix2 t u) = rowVar (rowOf x0 t) := by
  rw [val_main_v10_apply, val_main_v8_apply, val_main_v7_apply, val_main_v9_apply, val_main_cst_2_apply, val_main_cst_1_apply]
  show Ideal.div (Ideal.ofBits .f32 0x00000000#32 + ∑ k : Fin 4096, val_main_v6 (F := Ideal) x0 (idx_main_v7 (idx_main_v8 (ix2 t u)) k)) rowLen = _
  rw [Ideal.ofBits_zero_f32, zero_add]
  refine congrArg (fun s => Ideal.div s rowLen) (Finset.sum_congr rfl fun k _ => ?_)
  rw [sumIdx'_eq, val_main_v6_apply, dev_apply]
  rfl

/-- The reference's normalised array is the specification's. -/
theorem normed_apply' (x0 : S8192x4096.Idx → EReal) (t : Fin 8192) (k : Fin 4096) :
    val_main_v17 (F := Ideal) x0 (ix2 t k) = normed x0 (ix2 t k) := by
  rw [val_main_v17_apply, dev'_apply, val_main_v16_apply, colIdx''_eq, val_main_v15_apply, val_main_v14_apply, var_apply,
    val_main_v13_apply, val_main_cst_3_apply]
  rfl

/-- THE REFERENCE'S RESULT is the specification's, entry by entry. -/
theorem result_eq (x0 : S8192x4096.Idx → EReal) (x1 : S16384x4096.Idx → EReal) :
    val_main_v24 (F := Ideal) x0 x1 = result x0 x1 := by
  funext j
  obtain ⟨t, o, rfl⟩ : ∃ (t : Fin 8192) (o : Fin 16384), j = ix2 t o := ⟨j 0, j 1, eq_ix2 j⟩
  rw [val_main_v24_apply, val_main_v23_apply, val_main_cst_5_apply, val_main_v22_apply, val_main_v21_apply,
    val_main_cst_4_apply, val_main_v20_apply, val_main_v19_apply, val_main_v18_apply]
  have hs : ∑ k : Fin 4096, val_main_v17 (F := Ideal) x0 (lidx_main_v18 (ix2 t o) k) * x1 (ridx_main_v18 (ix2 t o) k)
      = ∑ k : Fin 4096, normed x0 (ix2 t k) * x1 (ix2 o k) :=
    Finset.sum_congr rfl fun k _ => by rw [lidx_eq, ridx_eq, normed_apply']
  rw [hs]
  show Ideal.div (Ideal.ofBits .f32 0x3F800000#32) (Ideal.ofBits .f32 0x3F800000#32 + Ideal.exp (-(∑ k : Fin 4096, normed x0 (ix2 t k) * x1 (ix2 o k)))) = _
  rw [one_eq]
  rfl

end Cert.ReferenceIdeal.RefValue

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.ChunkNorm.lean ====
/-
  One 128-row chunk of the kernel's layer normalisation, read at an index.

  The kernel normalises its 512-row block of `x` in four chunks of 128 rows. Each chunk's stored value is the same
  chain of operations on the chunk `v`: the lane sum of each row over 4096, its quotient by 4096 laid out as a column and
  spread back over the lanes (the row's mean), the deviations `v − mean`, the lane sum of their squares over 4096 (the
  variance), `rsqrt (variance + ε)` spread over the lanes, the product, and a change of float format (the identity on
  the extended reals). At entry (p, k) that is the normalised row `p` of the chunk at lane `k` — `rowNorm` of the
  specification: a row's statistics depend on that row only.
  The body spells the chain four times (the second and fourth chunk in two pieces, the deviations and the scale first):
  the four spellings are one term.
-/
import proofs.«179545_j59356448031118_2_alg».proof.Proof.Gen.KernelIdeal.Skeleton
import proofs.«179545_j59356448031118_2_alg».proof.Proof.Spec
import proofs.«179545_j59356448031118_2_alg».proof.Proof.LibColumn
import Idealize.ShloMosaic.PureOps.Ideal.Laws
import Idealize.ShloMosaic.Lib.Pipeline.Value
import Idealize.ShloMosaic.Lib.ValueIdx

noncomputable section

namespace Cert.KernelIdeal.ChunkNorm

open Idealize.ShloMosaic Idealize.ShloMosaic.ValueIdx
open Cert.KernelIdeal Cert.KernelIdeal.Gen Cert.NormLinear

/-- The lane sum of a [128, 4096] chunk at row `p`: the sum over the 4096 lanes of that row (a sum from the zero
    accumulator, which the exact sum leaves out). -/
theorem laneSum (v : FVec Ideal S128x4096 .f32) (hφ : FKind.Formats .f32)
    (hacc : (0x00000000#32 : BitVec 32) = 0x00000000#32) (p : Fin 128) :
    multiReduction .add [1] S128 v 0x00000000#32 reduces_S128x4096_S128 hφ hacc (ix1 p) = ∑ k : Fin 4096, v (ix2 p k) :=
  (Ideal.multiReduction_add_single v 0x00000000#32 reduces_S128x4096_S128 hφ hacc (ix1 p)).trans
    (Finset.sum_congr rfl fun k _ => congrArg v (funext fun a => Fin.ext (by
      match a with
      | ⟨0, _⟩ => rfl
      | ⟨1, _⟩ => rfl)))

/-- The inverse square root acts entry by entry. -/
theorem rsqrt_apply {s : Shape} {φ : FTy} (a : FVec Ideal s φ) (i : s.Idx) : rsqrt a i = Ideal.rsqrt (a i) := rfl

/-- THE CHUNK: what the body stores for a 128-row chunk `v` is, at (p, k), the normalised row `p` of `v` at lane `k`. -/
theorem chunk_apply (v : FVec Ideal S128x4096 .f32) (p : Fin 128) (k : Fin 4096) :
    k0_pay3 (F := Ideal) v (ix2 p k) = rowNorm (rowOf v p) k := by
  unfold k0_pay3
  simp only [shapeCast_self, truncf_apply, mulf_apply, subf_apply, addf_apply, divf_apply, broadcast_apply, rsqrt_apply,
    Cert.LibColumn.broadcastTo_a1_ab_apply, Cert.LibColumn.shapeCast_a_a1_apply]
  rw [laneSum v _ _ p, laneSum _ _ _ p]
  simp only [mulf_apply, subf_apply, divf_apply, broadcast_apply,
    Cert.LibColumn.broadcastTo_a1_ab_apply, Cert.LibColumn.shapeCast_a_a1_apply, laneSum v _ _ p]
  rfl

/-- The second chunk's spelling (deviations and scale first, then their product) is the first chunk's term. -/
theorem chunk1_eq (v : FVec Ideal S128x4096 .f32) : k0_pay6 (F := Ideal) (k0_pay4 v) (k0_pay5 v) = k0_pay3 v := rfl
/-- The third chunk's spelling is the first chunk's term. -/
theorem chunk2_eq (v : FVec Ideal S128x4096 .f32) : k0_pay7 (F := Ideal) v = k0_pay3 v := rfl
/-- The fourth chunk's spelling (deviations and the sum of their squares first) is the first chunk's term. -/
theorem chunk3_eq (v : FVec Ideal S128x4096 .f32) : k0_pay1 (F := Ideal) (k0_pay8 v) (k0_pay9 v) = k0_pay3 v := rfl

end Cert.KernelIdeal.ChunkNorm

end
-- ==== Proof.CaseValues.lean ====
/-
  What each control case of the body leaves behind, as values.

  The body runs in one of two cases. At the first column step of a row tile (case A) it normalises the 512-row block
  `x0` of `x` in four chunks of 128 rows, storing each chunk into the scratch block, and then reads the whole scratch
  back for the product; at every other step (case B) it stores nothing into the scratch and reads what the step before
  left there. In both cases the output block is the product payload of the weight block `x1` and the scratch as read.

    case A:  scratch  =  every row of `x0` normalised          (the four chunks tile the block, each the same function)
             output   =  payload (x1, that scratch)
    case B:  scratch  =  as it was (`xs`),   output = payload (x1, xs)
-/
import proofs.«179545_j59356448031118_2_alg».proof.Proof.Gen.KernelIdeal.Frame
import proofs.«179545_j59356448031118_2_alg».proof.Proof.ChunkNorm
import Idealize.ShloMosaic.Lib.Pipeline.Value
import Idealize.ShloMosaic.Lib.Tactic

noncomputable section

namespace Cert.KernelIdeal.CaseValues

open Idealize.ShloMosaic Idealize.ShloMosaic.TcCoe Idealize.ShloMosaic.ValueIdx Idealize.SL.Sem
open Cert.KernelIdeal Cert.KernelIdeal.Gen Cert.NormLinear Cert.KernelIdeal.ChunkNorm

theorem hz : (![0, 0] : Fin 2 → Nat) = fun _ => 0 := funext fun a => by fin_cases a <;> rfl

/-- Rows o … o+127 of a 512-row block, normalised as a chunk, are those rows of the normalised block: a row's mean and
    variance are taken over that row alone, so it does not matter which rows stand beside it. -/
theorem chunk_of_block (x0 : Vec Ideal S512x4096 .f32) (o : ℕ)
    (inb : ∀ a, (![o, 0] : Fin 2 → ℕ) a + S128x4096.size a ≤ S512x4096.size a) (y : S128x4096.Idx) :
    k0_pay3 (F := Ideal) (View.ld (Val := Elt Ideal) (e' := .f32) x0 (Rect.unit (s := S512x4096) ![o, 0] S128x4096.size inb)) y
      = normed x0 ((Rect.unit (s := S512x4096) ![o, 0] S128x4096.size inb).emb y) := by
  obtain ⟨a, b, rfl⟩ : ∃ (a : Fin 128) (b : Fin 4096), y = ix2 a b := ⟨y 0, y 1, eq_ix2 y⟩
  refine (chunk_apply _ a b).trans ?_
  have hrow : rowOf (View.ld (Val := Elt Ideal) (e' := .f32) x0 (Rect.unit (s := S512x4096) ![o, 0] S128x4096.size inb)) a
      = rowOf x0 (((Rect.unit (s := S512x4096) ![o, 0] S128x4096.size inb).emb (ix2 a b)) 0) := funext fun k => by
    show x0 _ = x0 _
    refine congrArg x0 (funext fun d => Fin.ext ?_)
    match d with
    | ⟨0, _⟩ => rfl
    | ⟨1, _⟩ => show 0 + 1 * k.val = k.val; omega
  have hlane : b = ((Rect.unit (s := S512x4096) ![o, 0] S128x4096.size inb).emb (ix2 a b)) 1 :=
    Fin.ext (by show b.val = 0 + 1 * b.val; omega)
  exact (congrArg (fun r => rowNorm r b) hrow).trans (congrArg (rowNorm _) hlane)

/-- CASE A, THE SCRATCH: after the four chunk stores it holds every row of the block `x0` normalised. -/
theorem scratchA (c : Dev nD) (i : grid0.Coords) (a2 : Memref sig .tc .vmem S512x4096 .f32) (h2 : a2.IsWhole)
    (a3 : Memref sig .tc .vmem S512x4096 .bf16) (h3 : a3.IsWhole) (a4 : Memref sig .tc .vmem S512x512 .f32) (h4 : a4.IsWhole)
    (a5 : Memref sig .tc .vmem S512x4096 .bf16) (h5 : a5.IsWhole) (hc : cond0_0 i)
    (x0 : Vec Ideal S512x4096 .f32) (x1 : Vec Ideal S512x4096 .bf16) :
    sout0_A_0 (F := Ideal) c i a2 h2 a3 h3 a4 h4 a5 h5 hc x0 x1 = normed x0 := by
  unfold sout0_A_0
  rw [View.read_writes_eq_canon _ _ _ (scover0_A_0 c i a2 h2 a3 h3 a4 h4 a5 h5 hc x0 x1)]
  funext y
  refine View.canon_apply_of_pieces (normed x0) _ ?_ y (scover0_A_0 c i a2 h2 a3 h3 a4 h4 a5 h5 hc x0 x1 y)
  unfold kernelRun0_A
  dsimp only
  sl_unfold_words
  simp only [View.readAt_eq_ld, h2.read_unread]
  intro pc hpc x
  simp only [List.mem_cons, List.not_mem_nil, or_false] at hpc
  rcases hpc with rfl | rfl | rfl | rfl
  · exact (congrFun (chunk3_eq _) x).trans (chunk_of_block x0 384 _ x)
  · exact (congrFun (chunk2_eq _) x).trans (chunk_of_block x0 256 _ x)
  · exact (congrFun (chunk1_eq _) x).trans (chunk_of_block x0 128 _ x)
  · exact chunk_of_block x0 0 _ x

variable {F : FTy → Type} [FloatOps F]

/-- CASE A, THE OUTPUT BLOCK: the product payload of the weight block and the scratch the case has just filled (its
    whole-block read after the four stores reads what they left). -/
theorem outA (c : Dev nD) (i : grid0.Coords) (a2 : Memref sig .tc .vmem S512x4096 .f32) (h2 : a2.IsWhole)
    (a3 : Memref sig .tc .vmem S512x4096 .bf16) (h3 : a3.IsWhole) (a4 : Memref sig .tc .vmem S512x512 .f32) (h4 : a4.IsWhole)
    (a5 : Memref sig .tc .vmem S512x4096 .bf16) (h5 : a5.IsWhole) (hc : cond0_0 i)
    (x0 : Vec F S512x4096 .f32) (x1 : Vec F S512x4096 .bf16) :
    out0_A_2 c i a2 h2 a3 h3 a4 h4 a5 h5 hc x0 x1
      = k0_pay2 x1 (sout0_A_0 c i a2 h2 a3 h3 a4 h4 a5 h5 hc x0 x1) := by
  unfold out0_A_2 sout0_A_0
  rw [View.read_writes_eq_canon _ _ _ (cover0_A_2 c i a2 h2 a3 h3 a4 h4 a5 h5 hc x0 x1),
    View.read_writes_eq_canon _ _ _ (scover0_A_0 c i a2 h2 a3 h3 a4 h4 a5 h5 hc x0 x1)]
  unfold kernelRun0_A
  dsimp only
  sl_unfold_words
  rw [View.canon_unit_zero hz]
  simp only [View.readAt_eq_ld, h3.read_unread, View.ld_unit_zero (S := S512x4096) hz]
  refine congrArg (k0_pay2 x1) ?_
  exact (View.readCov_eq_canon' _ _ _).trans (View.ld_unit_zero (S := S512x4096) hz _ (View.canon _))

/-- CASE B, THE OUTPUT BLOCK: the product payload of the weight block and the scratch as the step before left it. -/
theorem outB (c : Dev nD) (i : grid0.Coords) (a2 : Memref sig .tc .vmem S512x4096 .f32) (h2 : a2.IsWhole)
    (a3 : Memref sig .tc .vmem S512x4096 .bf16) (h3 : a3.IsWhole) (a4 : Memref sig .tc .vmem S512x512 .f32) (h4 : a4.IsWhole)
    (a5 : Memref sig .tc .vmem S512x4096 .bf16) (h5 : a5.IsWhole) (hc : ¬cond0_0 i)
    (x0 : Vec F S512x4096 .f32) (x1 : Vec F S512x4096 .bf16) (xs : Vec F S512x4096 .bf16) :
    out0_B_2 c i a2 h2 a3 h3 a4 h4 a5 h5 hc x0 x1 xs = k0_pay2 x1 xs := by
  unfold out0_B_2
  rw [View.read_writes_eq_canon _ _ _ (cover0_B_2 c i a2 h2 a3 h3 a4 h4 a5 h5 hc x0 x1 xs)]
  unfold kernelRun0_B
  dsimp only
  rw [View.canon_unit_zero hz]
  simp only [View.readAt_eq_ld, h3.read_unread, h5.read_unread, View.ld_unit_zero (S := S512x4096) hz]

end Cert.KernelIdeal.CaseValues

end
-- ==== Proof.BlockProduct.lean ====
/-
  The kernel's output payload read at an index: the matrix product of the normalised block with the weight block,
  through the logistic function.

  The body multiplies the [512, 4096] scratch block `s` (normalised rows) by the [512, 4096] weight block `w`,
  contracting the second axis of BOTH (the weight block is used transposed), into a zero accumulator, and applies the
  logistic function entry by entry. On the extended reals the product at (p, q) is the plain sum
  Σₖ s(p, k) · w(q, k): no rounding and no order of accumulation is left in it, and the zero accumulator adds nothing.
  So the payload at (p, q) is `entry s w p q` of the specification.
-/
import proofs.«179545_j59356448031118_2_alg».proof.Proof.Gen.KernelIdeal.Skeleton
import proofs.«179545_j59356448031118_2_alg».proof.Proof.Spec
import Idealize.ShloMosaic.PureOps.Ideal.Laws
import Idealize.ShloMosaic.Lib.Pipeline.Value
import Idealize.ShloMosaic.Lib.ValueIdx

noncomputable section

namespace Cert.KernelIdeal.BlockProduct

open Idealize.ShloMosaic Idealize.ShloMosaic.ValueIdx
open Cert.KernelIdeal Cert.KernelIdeal.Gen Cert.NormLinear

/-- The product's dimensions: [512, 4096] · [512, 4096]ᵀ → [512, 512], the second axis of each operand contracted. -/
abbrev dotD : DotDims S512x4096 S512x4096 S512x512 := dot_S512x4096_S512x4096_S512x512_1_1_0_0_n_n

/-- The left operand is read at the output's row … -/
theorem lhs_row (i : S512x512.Idx) (q : dotD.contr.Idx) : (dotD.lhsIdx i q 0).val = (i 0).val := by
  unfold DotDims.lhsIdx
  rw [dif_neg (show ¬(0 : Fin S512x4096.rank) ∈ dotD.lhsBatch by decide),
    dif_pos (show (0 : Fin S512x4096.rank) ∈ dotD.lhsNonContracting by decide)]
  rfl
/-- … and the contracted coordinate; -/
theorem lhs_lane (i : S512x512.Idx) (q : dotD.contr.Idx) : (dotD.lhsIdx i q 1).val = (q ⟨0, by decide⟩).val :=
  dotD.lhsIdx_val_of_single rfl i q
/-- the right operand at the output's COLUMN (its rows are the output's columns: it is used transposed) … -/
theorem rhs_row (i : S512x512.Idx) (q : dotD.contr.Idx) : (dotD.rhsIdx i q 0).val = (i 1).val := by
  unfold DotDims.rhsIdx
  rw [dif_neg (show ¬(0 : Fin S512x4096.rank) ∈ dotD.rhsBatch by decide),
    dif_pos (show (0 : Fin S512x4096.rank) ∈ dotD.rhsNonContracting by decide)]
  rfl
/-- … and the contracted coordinate. -/
theorem rhs_lane (i : S512x512.Idx) (q : dotD.contr.Idx) : (dotD.rhsIdx i q 1).val = (q ⟨0, by decide⟩).val :=
  dotD.rhsIdx_val_of_single rfl i q

/-- The product into the zero accumulator, at (p, q): the sum over the 4096 contracted coordinates of
    `l (p, k) · r (q, k)`. -/
theorem product_apply (l r : FVec Ideal S512x4096 .bf16) (p q : Fin 512) :
    matmul dotD none l r (constant (F := Ideal) S512x512 .f32 0x00000000#32) (ix2 p q)
      = ∑ k : Fin 4096, l (ix2 p k) * r (ix2 q k) := by
  simp only [matmul]
  rw [Ideal.matmul_constant_zero_apply, ← Equiv.sum_comp (contrEquiv1 dotD 4096 rfl rfl).symm]
  refine Finset.sum_congr rfl fun k _ => ?_
  have hk := contrEquiv1_symm_val dotD 4096 rfl rfl k
  have el : dotD.lhsIdx (ix2 p q) ((contrEquiv1 dotD 4096 rfl rfl).symm k) = ix2 p k := funext fun a => Fin.ext (by
    match a with
    | ⟨0, _⟩ => exact lhs_row _ _
    | ⟨1, _⟩ => exact (lhs_lane _ _).trans hk)
  have er : dotD.rhsIdx (ix2 p q) ((contrEquiv1 dotD 4096 rfl rfl).symm k) = ix2 q k := funext fun a => Fin.ext (by
    match a with
    | ⟨0, _⟩ => exact rhs_row _ _
    | ⟨1, _⟩ => exact (rhs_lane _ _).trans hk)
  rw [el, er]

/-- THE OUTPUT PAYLOAD of a weight block `w` and a scratch block `s`, at (p, q): the logistic function of the inner
    product of row `p` of `s` with row `q` of `w`. -/
theorem payload_apply (w s : FVec Ideal S512x4096 .bf16) (p q : Fin 512) :
    k0_pay2 (F := Ideal) w s (ix2 p q) = entry s w p q := by
  unfold k0_pay2
  show Ideal.logistic (matmul dotD none s (shapeCast S512x4096 w shapeCasts_S512x4096_S512x4096)
    (constant (F := Ideal) S512x512 .f32 0x00000000#32) (ix2 p q)) = _
  rw [shapeCast_self, product_apply]
  rfl

end Cert.KernelIdeal.BlockProduct

end
-- ==== Proof.PointValues.lean ====
/-
  From grid points to the whole result array.

  The grid is 16 row tiles × 32 column steps, walked row tile by row tile: point `t` is row tile `t / 32`, column step
  `t % 32`. At point `t` the body sees block `t / 32` of `x` (512 rows) and block `t % 32` of the weights (512
  rows), and writes block (t / 32, t % 32) of the result.

  * The scratch after ANY point holds the normalised rows of the point's own block of `x` (`scratch_after`, by
    induction along the walk): a first column step fills it from that block; a later step leaves it alone, and the
    step before it had the same block of `x` (the block index does not move inside a row tile).
  * So the output block at every point is the product payload of the point's weight block and that scratch
    (`out_at`), which entry by entry is the specification's result at the block's place in the array
    (`flushed_eq`): rows of the `x` block are rows of `x`, and a row's normalisation depends on that row only.
  * Every index of the result lies in exactly the block of point 32·(row / 512) + column / 512 (`cover`), so the
    array after the run IS the specification's result (`final`, `run`).
-/
import proofs.«179545_j59356448031118_2_alg».proof.Proof.Gen.KernelIdeal.Value
import proofs.«179545_j59356448031118_2_alg».proof.Proof.CaseValues
import proofs.«179545_j59356448031118_2_alg».proof.Proof.BlockProduct
import Idealize.ShloMosaic.Lib.Pipeline.Value
import Idealize.ShloMosaic.Lib.StableHlo.Run

noncomputable section

namespace Cert.KernelIdeal.PointValues

open Idealize.ShloMosaic Idealize.ShloMosaic.TcCoe Idealize.ShloMosaic.ValueIdx Idealize.SL.Sem
open Idealize.ShloMosaic.Pipeline (Dat)
open Cert.KernelIdeal Cert.KernelIdeal.Gen Cert.NormLinear
open Cert.KernelIdeal.CaseValues Cert.KernelIdeal.BlockProduct

variable (m : (ℓ : Loc nD τ sig) → Buf (Elt Ideal) ℓ) (ρ : Dev nD → PrngReg)

/-- The three index maps over the grid: the `x` block follows the row tile, the weight block the column step, the
    result block both (decided point by point). -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val / 32 ∧ win0_2.index t (1 : Fin 2) = t.val % 32 :=
  (by decide +kernel : ∀ t : Fin grid0.N, _)

/-- Inside a row tile the `x` block does not move: a point that is not a first column step sees the block the point
    before saw. -/
theorem xblock_prev (c : Dev nD) (t : Fin cfg0.N) (h0 : ¬t.val % 32 = 0) (hp : t.val - 1 < cfg0.N) :
    (iblk m c 0 ⟨t.val - 1, hp⟩ : S512x4096.Idx → EReal) = iblk m c 0 t := by
  obtain ⟨e0, e1, -⟩ := idx_facts t
  have e0' : win0_0.index ⟨t.val - 1, hp⟩ (0 : Fin 2) = (t.val - 1) / 32 := (idx_facts ⟨t.val - 1, hp⟩).1
  have e1' : win0_0.index ⟨t.val - 1, hp⟩ (1 : Fin 2) = 0 := (idx_facts ⟨t.val - 1, hp⟩).2.1
  funext y
  show V m c main_arg0 (((cfg0.win 0).blk ⟨t.val - 1, hp⟩).view.emb y) = V m c main_arg0 (((cfg0.win 0).blk t).view.emb y)
  have h : ((cfg0.win 0).blk ⟨t.val - 1, hp⟩).view.emb y = ((cfg0.win 0).blk t).view.emb y := by
    funext a; apply Fin.ext
    match a with
    | ⟨0, _⟩ =>
      show win0_0.index ⟨t.val - 1, hp⟩ (0 : Fin 2) * 512 + 1 * (y 0).val = win0_0.index t (0 : Fin 2) * 512 + 1 * (y 0).val
      omega
    | ⟨1, _⟩ =>
      show win0_0.index ⟨t.val - 1, hp⟩ (1 : Fin 2) * 4096 + 1 * (y 1).val = win0_0.index t (1 : Fin 2) * 4096 + 1 * (y 1).val
      omega
  rw [h]

/-- THE SCRATCH AFTER A POINT: the normalised rows of that point's block of `x`. -/
theorem scratch_after (c : Dev nD) : ∀ (n : ℕ) (h : n < cfg0.N),
    (outsAt0 m c n h).2 = normed (n := 512) (iblk m c 0 ⟨n, h⟩)
  | 0, h => by
    rw [outsAt0_A m c ⟨0, h⟩ rfl]
    dsimp only
    exact scratchA c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) ((hcond0_0 ⟨0, h⟩).mpr rfl) (iblk m c 0 ⟨0, h⟩) (iblk m c 1 ⟨0, h⟩)
  | n + 1, h => by
    by_cases h0 : (n + 1) % 32 = 0
    · rw [outsAt0_A m c ⟨n + 1, h⟩ h0]
      dsimp only
      exact scratchA c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) ((hcond0_0 ⟨n + 1, h⟩).mpr h0) (iblk m c 0 ⟨n + 1, h⟩) (iblk m c 1 ⟨n + 1, h⟩)
    · rw [outsAt0_B m c ⟨n + 1, h⟩ h0]
      dsimp only
      unfold sout0_B_0
      have hprev := scratch_after c n (Nat.lt_of_succ_lt h)
      exact hprev.trans (congrArg (normed (n := 512)) (xblock_prev m c ⟨n + 1, h⟩ h0 (Nat.lt_of_succ_lt h)))

/-- THE OUTPUT BLOCK AT A POINT: the product payload of the point's weight block and the normalised rows of its block
    of `x` — at a first column step from the scratch just filled, at a later one from the scratch carried over. -/
theorem out_at (c : Dev nD) (t : Fin cfg0.N) :
    (outsAt0 m c t.val t.isLt).1 = k0_pay2 (F := Ideal) (iblk m c 1 t) (normed (n := 512) (iblk m c 0 t)) := by
  by_cases h0 : t.val % 32 = 0
  · rw [outsAt0_A m c t h0]
    dsimp only
    exact (outA c (grid0.coords t) (ms0_0 t) (hs0_0 t) (ms0_1 t) (hs0_1 t) (ms0_2 t) (hs0_2 t) scM0_0 (Memref.isWhole_whole _) ((hcond0_0 t).mpr h0) (iblk m c 0 t) (iblk m c 1 t)).trans
      (congrArg (k0_pay2 (F := Ideal) (iblk m c 1 t))
        (scratchA c (grid0.coords t) (ms0_0 t) (hs0_0 t) (ms0_1 t) (hs0_1 t) (ms0_2 t) (hs0_2 t) scM0_0 (Memref.isWhole_whole _) ((hcond0_0 t).mpr h0) (iblk m c 0 t) (iblk m c 1 t)))
  · rw [outsAt0_B m c t h0]
    dsimp only
    have hp : t.val - 1 < cfg0.N := Nat.lt_of_le_of_lt (Nat.sub_le _ _) t.isLt
    refine (outB c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t)
      (outsAt0 m c (t.val - 1) hp).2).trans (congrArg (k0_pay2 (F := Ideal) (iblk m c 1 t)) ?_)
    exact (scratch_after m c (t.val - 1) hp).trans (congrArg (normed (n := 512)) (xblock_prev m c t h0 hp))

/-- WHAT POINT `t` WRITES BACK is block `t` of the specification's result of the arrays as the region finds them. -/
theorem flushed_eq (c : Dev nD) (t : Fin cfg0.N) :
    (dats m 0 c).flushed 2 t
      = ((cfg0.win 2).blk t).view.read (Elt Ideal) (result (V m c main_arg0) (V m c main_v0)) := by
  rw [Value.flushed2, out_at]
  obtain ⟨e0, e1, e2, e3, e4, e5⟩ := idx_facts t
  funext j
  obtain ⟨p, q, rfl⟩ : ∃ (p q : Fin 512), j = ix2 p q := ⟨j 0, j 1, eq_ix2 j⟩
  show k0_pay2 (F := Ideal) (iblk m c 1 t) (normed (n := 512) (iblk m c 0 t)) (ix2 p q)
    = result (V m c main_arg0) (V m c main_v0) (((cfg0.win 2).blk t).view.emb (ix2 p q))
  refine (payload_apply (iblk m c 1 t) (normed (n := 512) (iblk m c 0 t)) p q).trans ?_
  have hrow : rowOf (n := 512) (iblk m c 0 t) p
      = rowOf (n := 8192) (V m c main_arg0) ((((cfg0.win 2).blk t).view.emb (ix2 p q)) 0) := funext fun k => by
    show V m c main_arg0 (((cfg0.win 0).blk t).view.emb (ix2 p k)) = V m c main_arg0 _
    refine congrArg (V m c main_arg0) ?_
    funext a; apply Fin.ext
    match a with
    | ⟨0, _⟩ =>
      show win0_0.index t (0 : Fin 2) * 512 + 1 * p.val = win0_2.index t (0 : Fin 2) * 512 + 1 * p.val
      omega
    | ⟨1, _⟩ =>
      show win0_0.index t (1 : Fin 2) * 4096 + 1 * k.val = k.val
      omega
  have hw : ∀ k : Fin 4096, (iblk m c 1 t : S512x4096.Idx → EReal) (ix2 q k)
      = V m c main_v0 (ix2 ((((cfg0.win 2).blk t).view.emb (ix2 p q)) 1) k) := fun k => by
    show V m c main_v0 (((cfg0.win 1).blk t).view.emb (ix2 q k)) = V m c main_v0 _
    refine congrArg (V m c main_v0) ?_
    funext a; apply Fin.ext
    match a with
    | ⟨0, _⟩ =>
      show win0_1.index t (0 : Fin 2) * 512 + 1 * q.val = win0_2.index t (1 : Fin 2) * 512 + 1 * q.val
      omega
    | ⟨1, _⟩ =>
      show win0_1.index t (1 : Fin 2) * 4096 + 1 * k.val = k.val
      omega
  show Ideal.logistic (∑ k : Fin 4096, rowNorm (rowOf (n := 512) (iblk m c 0 t) p) k * (iblk m c 1 t : S512x4096.Idx → EReal) (ix2 q k))
    = Ideal.logistic (∑ k : Fin 4096, rowNorm (rowOf (n := 8192) (V m c main_arg0) ((((cfg0.win 2).blk t).view.emb (ix2 p q)) 0)) k
        * V m c main_v0 (ix2 ((((cfg0.win 2).blk t).view.emb (ix2 p q)) 1) k))
  rw [hrow]
  exact congrArg Ideal.logistic (Finset.sum_congr rfl fun k _ => congrArg (_ * ·) (hw k))

/-- An index of the result is in point `t`'s block iff each coordinate is in the block's range on its axis. -/
theorem mem_blk (t : Fin cfg0.N) (i : S8192x16384.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v1).slice (win0_2.rect t)).set ↔ _
  rw [View.set_slice_whole, Rect.mem_set_unit]
  exact Iff.rfl

/-- THE COVER: index (r, s) of the result lies in the block of point 32·(r / 512) + s / 512. -/
theorem cover (i : S8192x16384.Idx) :
    ∃ t : Fin cfg0.N, (cfg0.win 2).flush t = true ∧ i ∈ ((cfg0.win 2).blk t).view.set := by
  have hi0 : (i 0).val < 8192 := (i 0).isLt
  have hi1 : (i 1).val < 16384 := (i 1).isLt
  have hN : cfg0.N = 512 := N_0
  have hT : 32 * ((i 0).val / 512) + (i 1).val / 512 < cfg0.N := lt_of_lt_of_eq (by omega) hN.symm
  have e4 : win0_2.index ⟨32 * ((i 0).val / 512) + (i 1).val / 512, hT⟩ (0 : Fin 2)
      = (32 * ((i 0).val / 512) + (i 1).val / 512) / 32 := (idx_facts ⟨_, hT⟩).2.2.2.2.1
  have e5 : win0_2.index ⟨32 * ((i 0).val / 512) + (i 1).val / 512, hT⟩ (1 : Fin 2)
      = (32 * ((i 0).val / 512) + (i 1).val / 512) % 32 := (idx_facts ⟨_, hT⟩).2.2.2.2.2
  refine ⟨⟨32 * ((i 0).val / 512) + (i 1).val / 512, hT⟩, flush0_2 _, ?_⟩
  rw [mem_blk]
  intro a
  match a with
  | ⟨0, _⟩ =>
    show win0_2.index ⟨32 * ((i 0).val / 512) + (i 1).val / 512, hT⟩ (0 : Fin 2) * 512 ≤ (i 0).val
      ∧ (i 0).val < win0_2.index ⟨32 * ((i 0).val / 512) + (i 1).val / 512, hT⟩ (0 : Fin 2) * 512 + 512
    omega
  | ⟨1, _⟩ =>
    show win0_2.index ⟨32 * ((i 0).val / 512) + (i 1).val / 512, hT⟩ (1 : Fin 2) * 512 ≤ (i 1).val
      ∧ (i 1).val < win0_2.index ⟨32 * ((i 0).val / 512) + (i 1).val / 512, hT⟩ (1 : Fin 2) * 512 + 512
    omega

/-- The weights as the region finds them: the host's change of float format before the call is the identity on the
    extended reals. -/
theorem weights_eq (c : Dev nD) :
    (V m c main_v0 : S16384x4096.Idx → EReal) = m ((c : Thread nD τ).loc main_arg1) := by
  dsimp only [Gen.V, Gen.hostOps0]
  after_results
  rfl

/-- THE RESULT ARRAY after the run: the specification's result of the two argument arrays. -/
theorem final (c : Dev nD) : (dats m 0 c).arrAt 2 cfg0.N
    = result (m ((c : Thread nD τ).loc main_arg0)) (m ((c : Thread nD τ).loc main_arg1)) := by
  rw [(dats m 0 c).arrAt_eq_of_cover 2 (result (V m c main_arg0) (V m c main_v0)) (fun t _ => flushed_eq m c t) cover,
    V_main_arg0, weights_eq]

/-- The run, read: the result array at the specification's result, the arguments unchanged. -/
theorem run : θ_run defs (onTc (τ := τ) (main (F := Ideal))) ⟨m, fun _ => 0, ρ⟩ fun r => ∀ c : Dev nD,
      r.2.mem ((c : Thread nD τ).loc main_v1)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.PointValues

end
-- ==== Proof.lean ====
/-
  Layer normalisation fused with a linear map and the logistic function: the tiled kernel against the plain formula.

  The kernel walks a 16 × 32 grid. For each 512-row tile of `x` it normalises the rows once (mean, biased variance,
  inverse square root of variance plus ε, over each row's 4096 entries), keeps them in a scratch block, and for each of
  the 32 column steps multiplies that block by 512 rows of the weights (used transposed) and applies the logistic
  function. The reference normalises every row of `x`, multiplies by the transposed weights in one product and
  writes the logistic function out as 1 / (1 + exp (−y)).

  On the extended reals the two are ONE function of `x` and `W`, for every input, finite or not:
    * a row's mean and variance use that row only, so normalising 128 rows at a time, 512 at a time or all 8192 at once
      gives each row the same result (Proof/ChunkNorm.lean, Proof/CaseValues.lean);
    * the scratch carried from one column step to the next still holds the rows of the same tile of `x`
      (Proof/PointValues.lean, an induction along the grid walk);
    * a block of the product is the product of the blocks' rows: entry (t, o) is the sum over the 4096 shared
      coordinates of x̂ₜₖ · W_ok, the same sum in both programs, with no accumulation order left at exact arithmetic
      (Proof/BlockProduct.lean against the reference's `dot_general`);
    * changes of float format are the identity, the divisor 4096.0 and the offset ε are the same words on both sides, the
      sums' zero starting value adds nothing, and 1 / (1 + exp (−y)) IS the logistic function, at ±∞ too
      (Proof/RefIsSpec.lean).
  No algebraic law that needs finiteness is used, so the precondition is never opened.

  The three frames are the generated ones (the reference's is its generated run with the result dropped); nothing was
  rewritten when the kernel was idealised, so that conjunct is `True`.
-/
import proofs.«179545_j59356448031118_2_alg».proof.Defs
import proofs.«179545_j59356448031118_2_alg».proof.Proof.Gen.Kernel
import proofs.«179545_j59356448031118_2_alg».proof.Proof.Gen.Kernel.Frame
import proofs.«179545_j59356448031118_2_alg».proof.Proof.Gen.KernelIdeal
import proofs.«179545_j59356448031118_2_alg».proof.Proof.Gen.KernelIdeal.Frame
import proofs.«179545_j59356448031118_2_alg».proof.Proof.Gen.KernelIdeal.Value
import proofs.«179545_j59356448031118_2_alg».proof.Proof.Gen.ReferenceIdeal
import proofs.«179545_j59356448031118_2_alg».proof.Proof.Gen.ReferenceIdeal.Run
import proofs.«179545_j59356448031118_2_alg».proof.Proof.Gen.ReferenceIdeal.Read
import proofs.«179545_j59356448031118_2_alg».proof.Proof.Gen.Pre_finite_inputs
import proofs.«179545_j59356448031118_2_alg».proof.Proof.Spec
import proofs.«179545_j59356448031118_2_alg».proof.Proof.RefIsSpec
import proofs.«179545_j59356448031118_2_alg».proof.Proof.PointValues
import Idealize.ShloMosaic.Adequacy
import Idealize.ShloMosaic.Init

noncomputable section

namespace Cert.Proof

open Idealize.ShloMosaic Idealize.ShloMosaic.TcCoe Idealize.SL.Sem

/-- The kernel as printed runs and leaves its arguments as they were (the generated frame). -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- The reference runs and leaves its arguments as they were: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Idealising the kernel rewrote no operation. -/
theorem preserves : Cert.preserves_Kernel_KernelIdeal := trivial

/-- On the extended reals both programs end with the specification's result of the argument arrays: the kernel's array
    block by block (Proof/PointValues.lean), the reference's operation by operation (Proof/RefIsSpec.lean), from
    arguments that agree. -/
theorem algebraic : Cert.algebraic_KernelIdeal_ReferenceIdeal := by
  intro m ρ m' ρ' _ hagree
  refine ⟨fun c => Cert.NormLinear.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.PointValues.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
